-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S1000x16 : Shape := ⟨2, ![1000, 16]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S1000x16 : S_.BroadcastsInDim S1000x16 (![] : Fin 0 → Fin S1000x16.rank)
  reducesTo_S1000x16_S_d0_1 : S1000x16.ReducesTo [0, 1] S_

variable [Facts]

def fn {F : FTy → Type} [FloatOps F] (main_arg0 : FVec F S16384x1000 .f32) (main_arg1 : FVec F S1000x16 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S1000x16 .f32 := Host.absf main_arg1
  let main_cst_0 : FVec F S_ .f32 := constant S_ .f32 0x7F800000#32
  let main_v5 : FVec F S1000x16 .f32 := broadcastInDim S1000x16 ![] bcast_S_S1000x16 main_cst_0
  let main_v6 : IVec S1000x16 1 := cmpf .olt main_v4 main_v5
  let main_c_1 : IVec S_ 1 := constantI S_ 1 1#1
  let main_v7 : IVec S_ 1 := (fun x v => Host.reduce IntOp.andi x v reducesTo_S1000x16_S_d0_1 h_S_) main_v6 main_c_1
  let main_v8 : IVec S_ 1 := andi main_v3 main_v7
  main_v8
-- ==== Kernel.lean ====
abbrev S16384x1000 : Shape := ⟨2, ![16384, 1000]⟩
abbrev S1000x16 : Shape := ⟨2, ![1000, 16]⟩
abbrev S1000x16384 : Shape := ⟨2, ![1000, 16384]⟩
abbrev S16x16384 : Shape := ⟨2, ![16, 16384]⟩
abbrev S1000x512 : Shape := ⟨2, ![1000, 512]⟩
abbrev S16x512 : Shape := ⟨2, ![16, 512]⟩
abbrev S16384x16 : Shape := ⟨2, ![16384, 16]⟩

abbrev nBuf : Space → Nat
  | .hbm => 5
  | .vmem => 5
  | .smem => 0
  | _ => 0

abbrev bufTy : (tb : Table) → Fin (tcTables nBuf tb) → BufTy
  | .hbm, ⟨0, _⟩ => ⟨S16384x1000, .f32⟩
  | .hbm, ⟨1, _⟩ => ⟨S1000x16, .f32⟩
  | .hbm, ⟨2, _⟩ => ⟨S1000x16384, .f32⟩
  | .hbm, ⟨3, _⟩ => ⟨S16x16384, .f32⟩
  | .hbm, ⟨4, _⟩ => ⟨S16384x16, .f32⟩
  | .local _ .vmem, ⟨0, _⟩ => ⟨S1000x512, .f32⟩
  | .local _ .vmem, ⟨1, _⟩ => ⟨S1000x512, .f32⟩
  | .local _ .vmem, ⟨2, _⟩ => ⟨S1000x16, .f32⟩
  | .local _ .vmem, ⟨3, _⟩ => ⟨S16x512, .f32⟩
  | .local _ .vmem, ⟨4, _⟩ => ⟨S16x512, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S16384x1000_S1000x16384_1_0 : S16384x1000.Transposes [1, 0] S1000x16384
  inb_S1000x16_S1000x16_0_0 : ∀ a, (![0, 0] : Fin 2 → Nat) a + S1000x16.size a ≤ S1000x16.size a
  h_S1000x16 : 0 < S1000x16.numel
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S16x512_S16x512_0_0 : ∀ a, (![0, 0] : Fin 2 → Nat) a + S16x512.size a ≤ S16x512.size a
  h_S16x512 : 0 < S16x512.numel
  transposes_S16x16384_S16384x16_1_0 : S16x16384.Transposes [1, 0] S16384x16
  dot_S1000x16_S1000x512_S16x512_0_0_1_1_n_n_wf : DotDims.WF S1000x16 S1000x512 S16x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S1000x16384.size a
  hwx0_0 : ∀ i : grid0.Coords, EltTy.bits .f32 = 32 ∨ (Rect.block (s := S1000x16384) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x16.size a ≤ S1000x16.size a
  hwx0_1 : ∀ i : grid0.Coords, EltTy.bits .f32 = 32 ∨ (Rect.block (s := S1000x16) S1000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x16384.size a
  hwx0_2 : ∀ i : grid0.Coords, EltTy.bits .f32 = 32 ∨ (Rect.block (s := S16x16384) S16x512.size (cc0_transform_2 i) (hinb0_2 i)).WholeWords (EltTy.packing .f32)

variable [Facts₀]

def dot_S1000x16_S1000x512_S16x512_0_0_1_1_n_n : DotDims S1000x16 S1000x512 S16x512 where
  lhsContracting := [0]
  rhsContracting := [0]
  lhsNonContracting := [1]
  rhsNonContracting := [1]
  lhsBatch := []
  rhsBatch := []
  wf := dot_S1000x16_S1000x512_S16x512_0_0_1_1_n_n_wf

abbrev win0_0 : Pipeline.Window sig grid0 :=
  Pipeline.Window.ofSpec (Memref.whole main_v0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1000 : Shape := ⟨2, ![16384, 1000]⟩
abbrev S1000x16 : Shape := ⟨2, ![1000, 16]⟩
abbrev S16384x16 : Shape := ⟨2, ![16384, 16]⟩

abbrev nBuf : Space → Nat
  | .hbm => 3
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S1000x16, .f32⟩
  | .hbm, ⟨2, _⟩ => ⟨S16384x16, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S16384x1000_S1000x16_S16384x16_1_0_0_1_n_n_wf : DotDims.WF S16384x1000 S1000x16 S16384x16 [1] [0] [0] [1] [] []

variable [Facts₀]

def dot_S16384x1000_S1000x16_S16384x16_1_0_0_1_n_n : DotDims S16384x1000 S1000x16 S16384x16 where
  lhsContracting := [1]
  rhsContracting := [0]
  lhsNonContracting := [0]
  rhsNonContracting := [1]
  lhsBatch := []
  rhsBatch := []
  wf := dot_S16384x1000_S1000x16_S16384x16_1_0_0_1_n_n_wf

class Facts : Prop extends Facts₀ where

variable [Facts]
-- ==== Proof.Product.lean ====
/-
  The mathematics of this certificate, with no program in sight.

  A batch of 16384 feature rows `x` (1000 features each) is multiplied by an embedding table `e` (1000 × 16):
  entry (b, c) of the product is the sum over the features k of x[b, k] · e[k, c] (`dot`). The same numbers
  arranged the other way round — entry (c, b) of eᵀ · xᵀ, the sum over k of e[k, c] · x[b, k] (`dotT`) — are what
  a computation on the transposed operands produces. On the extended reals multiplication is commutative, so
  the two sums agree term by term (`dotT_eq_dot`): no finiteness of the entries is needed, the sum is over
  the same index set in both, and nothing is regrouped.
-/
import Idealize.ShloMosaic.PureOps.Ideal
import Idealize.ShloMosaic.Lib.ValueIdx

noncomputable section

open scoped BigOperators

namespace Cert.FeatureProduct

open Idealize.ShloMosaic Idealize.ShloMosaic.ValueIdx

/-- Entry (b, c) of x · e: the features of row b weighted by column c of the table. -/
def dot (x : FVec Ideal ⟨2, ![16384, 1000]⟩ .f32) (e : FVec Ideal ⟨2, ![1000, 16]⟩ .f32) (b : Fin 16384) (c : Fin 16) : EReal :=
  ∑ k : Fin 1000, x (ix2 b k) * e (ix2 k c)

/-- Entry (c, b) of eᵀ · xᵀ: column c of the table against row b of the features, table factor first. -/
def dotT (x : FVec Ideal ⟨2, ![16384, 1000]⟩ .f32) (e : FVec Ideal ⟨2, ![1000, 16]⟩ .f32) (c : Fin 16) (b : Fin 16384) : EReal :=
  ∑ k : Fin 1000, e (ix2 k c) * x (ix2 b k)

/-- The transposed product's entry (c, b) is the product's entry (b, c): each term's two factors swapped. -/
theorem dotT_eq_dot (x : FVec Ideal ⟨2, ![16384, 1000]⟩ .f32) (e : FVec Ideal ⟨2, ![1000, 16]⟩ .f32) (c : Fin 16) (b : Fin 16384) :
    dotT x e c b = dot x e b c :=
  Finset.sum_congr rfl fun k _ => mul_comm (e (ix2 k c)) (x (ix2 b k))

/-- The product as an array of shape [16384, 16]. -/
def product (x : FVec Ideal ⟨2, ![16384, 1000]⟩ .f32) (e : FVec Ideal ⟨2, ![1000, 16]⟩ .f32) : FVec Ideal ⟨2, ![16384, 16]⟩ .f32 :=
  fun i => dot x e (i 0) (i 1)

/-- The transposed product as an array of shape [16, 16384]. -/
def productT (x : FVec Ideal ⟨2, ![16384, 1000]⟩ .f32) (e : FVec Ideal ⟨2, ![1000, 16]⟩ .f32) : FVec Ideal ⟨2, ![16, 16384]⟩ .f32 :=
  fun j => dotT x e (j 0) (j 1)

/-- The transposed product at an index whose two coordinates are known. -/
theorem productT_apply (x : FVec Ideal ⟨2, ![16384, 1000]⟩ .f32) (e : FVec Ideal ⟨2, ![1000, 16]⟩ .f32)
    (j : (⟨2, ![16, 16384]⟩ : Shape).Idx) (c : Fin 16) (b : Fin 16384) (h0 : (j 0).val = c.val) (h1 : (j 1).val = b.val) :
    productT x e j = dotT x e c b := by
  have e0 : j 0 = c := Fin.ext h0
  have e1 : j 1 = b := Fin.ext h1
  show dotT x e (j 0) (j 1) = _
  rw [e0, e1]

end Cert.FeatureProduct

end
-- ==== Proof.ReferenceProduct.lean ====
/-
  The reference computes the product.

  The reference is one contraction of the feature rows against the embedding table over the 1000 features:
  entry (b, c) of its result is the sum over k of x[b, k] · e[k, c], which is `dot x e b c` as written — the same
  factors in the same order, so nothing but the spelling of the two operand indices has to be matched.
-/
import proofs.«146224_g26422638805035_cont_9to1_837_16_alg».proof.Proof.Gen.ReferenceIdeal.Read
import proofs.«146224_g26422638805035_cont_9to1_837_16_alg».proof.Proof.Product

noncomputable section

open scoped BigOperators

namespace Cert.ReferenceIdeal.RefProduct

open Cert.ReferenceIdeal Cert.ReferenceIdeal.Read Cert.FeatureProduct Idealize.ShloMosaic Idealize.ShloMosaic.ValueIdx

/-- The feature operand's index at result entry `i` and feature `k` is (row of `i`, `k`). -/
theorem features_index (i : S16384x16.Idx) (k : Fin 1000) : lidx_main_v0 i k = ix2 (i 0) k :=
  funext fun a => by match a with | ⟨0, _⟩ => rfl | ⟨1, _⟩ => rfl

/-- The table operand's index at result entry `i` and feature `k` is (`k`, column of `i`). -/
theorem table_index (i : S16384x16.Idx) (k : Fin 1000) : ridx_main_v0 i k = ix2 k (i 1) :=
  funext fun a => by match a with | ⟨0, _⟩ => rfl | ⟨1, _⟩ => rfl

/-- The reference's result, as a function of its two arguments, is the product. -/
theorem result_eq (x : (⟨S16384x1000, .f32⟩ : BufTy).Contents (Elt Ideal)) (e : (⟨S1000x16, .f32⟩ : BufTy).Contents (Elt Ideal)) :
    val_main_v0 (F := Ideal) x e = product x e := by
  funext i
  rw [val_main_v0_apply]
  show _ = dot x e (i 0) (i 1)
  unfold dot
  refine Finset.sum_congr rfl fun k _ => ?_
  rw [features_index, table_index]
  rfl

end Cert.ReferenceIdeal.RefProduct

end
-- ==== Proof.BodyProduct.lean ====
/-
  What the kernel body computes, read at one entry.

  The body loads the whole embedding table (1000 × 16) and a block of 512 columns of the transposed features
  (1000 × 512), and stores their product contracted over the 1000 features into a 16 × 512 block: entry (p, q) is
  the sum over the features k of table[k, p] · block[k, q], added to a zero accumulator. The contraction runs
  over the FIRST axis of both operands, so the table is used transposed without ever being rearranged.
-/
import proofs.«146224_g26422638805035_cont_9to1_837_16_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.BodyProduct

open Cert.KernelIdeal Cert.KernelIdeal.Gen Idealize.ShloMosaic Idealize.ShloMosaic.ValueIdx

/-- On the table's feature axis (the contracted one) the operand index is the contraction position. -/
theorem table_feature (j : S16x512.Idx) (s : dot_S1000x16_S1000x512_S16x512_0_0_1_1_n_n.contr.Idx) :
    (dot_S1000x16_S1000x512_S16x512_0_0_1_1_n_n.lhsIdx j s 0).val = (s ⟨0, by decide⟩).val :=
  dot_S1000x16_S1000x512_S16x512_0_0_1_1_n_n.lhsIdx_val_of_single rfl j s

/-- On the table's embedding axis the operand index is the result's row. -/
theorem table_column (j : S16x512.Idx) (s : dot_S1000x16_S1000x512_S16x512_0_0_1_1_n_n.contr.Idx) :
    (dot_S1000x16_S1000x512_S16x512_0_0_1_1_n_n.lhsIdx j s 1).val = (j 0).val := by
  unfold DotDims.lhsIdx
  rw [dif_neg (show ¬(1 : Fin S1000x16.rank) ∈ dot_S1000x16_S1000x512_S16x512_0_0_1_1_n_n.lhsBatch by decide),
    dif_pos (show (1 : Fin S1000x16.rank) ∈ dot_S1000x16_S1000x512_S16x512_0_0_1_1_n_n.lhsNonContracting by decide)]
  rfl

/-- On the block's feature axis (the contracted one) the operand index is the contraction position. -/
theorem block_feature (j : S16x512.Idx) (s : dot_S1000x16_S1000x512_S16x512_0_0_1_1_n_n.contr.Idx) :
    (dot_S1000x16_S1000x512_S16x512_0_0_1_1_n_n.rhsIdx j s 0).val = (s ⟨0, by decide⟩).val :=
  dot_S1000x16_S1000x512_S16x512_0_0_1_1_n_n.rhsIdx_val_of_single rfl j s

/-- On the block's batch axis the operand index is the result's column. -/
theorem block_column (j : S16x512.Idx) (s : dot_S1000x16_S1000x512_S16x512_0_0_1_1_n_n.contr.Idx) :
    (dot_S1000x16_S1000x512_S16x512_0_0_1_1_n_n.rhsIdx j s 1).val = (j 1).val := by
  unfold DotDims.rhsIdx
  rw [dif_neg (show ¬(1 : Fin S1000x512.rank) ∈ dot_S1000x16_S1000x512_S16x512_0_0_1_1_n_n.rhsBatch by decide),
    dif_pos (show (1 : Fin S1000x512.rank) ∈ dot_S1000x16_S1000x512_S16x512_0_0_1_1_n_n.rhsNonContracting by decide)]
  rfl

/-- The stored block at entry (p, q): the sum over the features of table[k, p] · block[k, q]. -/
theorem stored_apply (table : FVec Ideal S1000x16 .f32) (block : FVec Ideal S1000x512 .f32) (p : Fin 16) (q : Fin 512) :
    k0_pay1 (F := Ideal) table block (ix2 p q) = ∑ k : Fin 1000, table (ix2 k p) * block (ix2 k q) := by
  unfold k0_pay1
  rw [shapeCast_self]
  refine (Ideal.matmul_constant_zero_apply dot_S1000x16_S1000x512_S16x512_0_0_1_1_n_n none table block (ix2 p q)).trans ?_
  rw [← Equiv.sum_comp (contrEquiv1 dot_S1000x16_S1000x512_S16x512_0_0_1_1_n_n 1000 rfl rfl).symm]
  refine Finset.sum_congr rfl fun k _ => ?_
  have hk := contrEquiv1_symm_val dot_S1000x16_S1000x512_S16x512_0_0_1_1_n_n 1000 rfl rfl k
  have el : dot_S1000x16_S1000x512_S16x512_0_0_1_1_n_n.lhsIdx (ix2 p q) ((contrEquiv1 dot_S1000x16_S1000x512_S16x512_0_0_1_1_n_n 1000 rfl rfl).symm k) = ix2 k p :=
    funext fun a => Fin.ext (by
      match a with
      | ⟨0, _⟩ => exact (table_feature _ _).trans hk
      | ⟨1, _⟩ => exact table_column _ _)
  have er : dot_S1000x16_S1000x512_S16x512_0_0_1_1_n_n.rhsIdx (ix2 p q) ((contrEquiv1 dot_S1000x16_S1000x512_S16x512_0_0_1_1_n_n 1000 rfl rfl).symm k) = ix2 k q :=
    funext fun a => Fin.ext (by
      match a with
      | ⟨0, _⟩ => exact (block_feature _ _).trans hk
      | ⟨1, _⟩ => exact block_column _ _)
  rw [el, er]

end Cert.KernelIdeal.BodyProduct

end
-- ==== Proof.BlockReads.lean ====
/-
  Where each block of the kernel's operands comes from.

  Before the kernel runs, the feature rows x (16384 × 1000) are transposed to xᵀ (1000 × 16384). The 32 grid points
  walk along the batch: point t sees columns 512·t … 512·t + 511 of xᵀ — all 1000 features of 512 consecutive batch
  rows — and the whole embedding table, and writes columns 512·t … 512·t + 511 of the 16 × 16384 result. So entry
  (k, q) of point t's feature block is x[512·t + q, k], and entry (k, p) of its table block is e[k, p].
-/
import proofs.«146224_g26422638805035_cont_9to1_837_16_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.BlockReads

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The three index maps at every grid point: the feature block and the result block sit at column block `t`,
    row block 0; the table is always its one block. -/
theorem block_indices : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-- When the kernel starts, its first operand holds the transposed feature rows. -/
theorem entry_transposed (c : Dev nD) :
    (V m c main_v0 : S1000x16384.Idx → Elt Ideal .f32)
      = transpose S1000x16384 [1, 0] (m ((c : Thread nD τ).loc main_arg0)) transposes_S16384x1000_S1000x16384_1_0 := by
  show StableHlo.after hostOps0 (fun b => m (c, b)) (Proc.devRef .tc main_v0) = _
  after_results

/-- Entry (k, q) of point `t`'s feature block is feature `k` of batch row `b = 512·t + q`. -/
theorem features_block_apply (c : Dev nD) (t : Fin cfg0.N) (k : Fin 1000) (q : Fin 512) (b : Fin 16384)
    (hb : b.val = t.val * 512 + q.val) :
    (iblk m c 0 t : Vec Ideal S1000x512 .f32) (ix2 k q)
      = (m ((c : Thread nD τ).loc main_arg0) : S16384x1000.Idx → Elt Ideal .f32) (ix2 b k) := by
  obtain ⟨e0, e1, -⟩ := block_indices t
  unfold iblk
  rw [View.read_apply]
  show V m c main_v0 _ = _
  rw [entry_transposed]
  refine transpose_apply [1, 0] _ _ _ (ix2 b k) fun a => ?_
  match a with
  | ⟨0, _⟩ => show k.val = win0_0.index t (0 : Fin 2) * 1000 + 1 * k.val; rw [e0]; omega
  | ⟨1, _⟩ => show b.val = win0_0.index t (1 : Fin 2) * 512 + 1 * q.val; rw [e1, hb]; omega

/-- Entry (k, p) of the table block, at any point, is entry (k, p) of the table. -/
theorem table_block_apply (c : Dev nD) (t : Fin cfg0.N) (k : Fin 1000) (p : Fin 16) :
    (iblk m c 1 t : Vec Ideal S1000x16 .f32) (ix2 k p)
      = (m ((c : Thread nD τ).loc main_arg1) : S1000x16.Idx → Elt Ideal .f32) (ix2 k p) := by
  obtain ⟨-, -, e2, e3, -⟩ := block_indices t
  unfold iblk
  rw [View.read_apply]
  show V m c main_arg1 _ = _
  rw [V_main_arg1]
  refine congrArg (m ((c : Thread nD τ).loc main_arg1) : S1000x16.Idx → Elt Ideal .f32) (funext fun a => Fin.ext ?_)
  match a with
  | ⟨0, _⟩ => show win0_1.index t (0 : Fin 2) * 1000 + 1 * k.val = k.val; rw [e2]; omega
  | ⟨1, _⟩ => show win0_1.index t (1 : Fin 2) * 16 + 1 * p.val = p.val; rw [e3]; omega

end Cert.KernelIdeal.BlockReads

end
-- ==== Proof.KernelProduct.lean ====
/-
  The kernel computes the product.

  Point t of the grid multiplies the transposed table against its 512 columns of the transposed features and
  writes the 16 × 512 result into columns 512·t … 512·t + 511 of a 16 × 16384 array: entry (p, 512·t + q) receives
  the sum over the features k of e[k, p] · x[512·t + q, k], which is entry (p, 512·t + q) of eᵀ · xᵀ. The 32 column
  blocks tile the array, so after the last point it holds eᵀ · xᵀ everywhere. The program then transposes that
  array, and the transpose of eᵀ · xᵀ is x · e because each term's two factors commute.
-/
import proofs.«146224_g26422638805035_cont_9to1_837_16_alg».proof.Proof.Gen.KernelIdeal.Frame
import proofs.«146224_g26422638805035_cont_9to1_837_16_alg».proof.Proof.Product
import proofs.«146224_g26422638805035_cont_9to1_837_16_alg».proof.Proof.BodyProduct
import proofs.«146224_g26422638805035_cont_9to1_837_16_alg».proof.Proof.BlockReads
import Idealize.ShloMosaic.Lib.Pipeline.Value
import Idealize.ShloMosaic.Lib.StableHlo.Run
import Idealize.ShloMosaic.Lib.ValueIdx
import Idealize.ShloMosaic.Lib.Tactic

noncomputable section

open scoped BigOperators

namespace Cert.KernelIdeal.KernelProduct

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.FeatureProduct Cert.KernelIdeal.BodyProduct Cert.KernelIdeal.BlockReads

variable (m : (ℓ : Loc nD τ sig) → Buf (Elt Ideal) ℓ) (ρ : Dev nD → PrngReg)

/-- Every load and the store of the body start at the origin of their buffers. -/
theorem origin : (![0, 0] : Fin 2 → Nat) = fun _ => 0 := funext fun a => by fin_cases a <;> rfl

/-- What the body leaves in the result's buffer, at entry (p, q): the table's column p against the feature
    block's column q, summed over the features. -/
theorem left_apply (features : Vec Ideal S1000x512 .f32) (table : Vec Ideal S1000x16 .f32) (p : Fin 16) (q : Fin 512) :
    out0_2 (F := Ideal) features table (ix2 p q) = ∑ k : Fin 1000, table (ix2 k p) * features (ix2 k q) := by
  unfold out0_2
  rw [View.canon_unit_zero origin]
  simp only [View.ld_unit_zero (S := S1000x16) origin, View.ld_unit_zero (S := S1000x512) origin]
  exact stored_apply table features p q

/-- What point `t` writes back is its block of the transposed product of the arguments. -/
theorem written_back (c : Dev nD) (t : Fin cfg0.N) :
    (dats m 0 c).flushed 2 t = ((cfg0.win 2).blk t).view.read (Elt Ideal)
      (productT (m ((c : Thread nD τ).loc main_arg0)) (m ((c : Thread nD τ).loc main_arg1))) := by
  show (cfg0.win 2).cut (grid0.coords t) ((dats m 0 c).after 2 t) = _
  rw [after0_2]
  obtain ⟨-, -, -, -, e4, e5⟩ := block_indices t
  funext j
  obtain ⟨p, q, rfl⟩ : ∃ (p : Fin 16) (q : Fin 512), j = ix2 p q := ⟨j 0, j 1, eq_ix2 j⟩
  have hN : cfg0.N = 32 := N_0
  have hq : t.val * 512 + q.val < 16384 := by have := t.isLt; omega
  show out0_2 (iblk m c 0 t) (iblk m c 1 t) (ix2 p q) = productT _ _ (((cfg0.win 2).blk t).view.emb (ix2 p q))
  rw [left_apply]
  refine Eq.trans ?_ (productT_apply _ _ _ p ⟨t.val * 512 + q.val, hq⟩ ?_ ?_).symm
  · unfold dotT
    refine Finset.sum_congr rfl fun k _ => ?_
    rw [table_block_apply m c t k p, features_block_apply m c t k q ⟨t.val * 512 + q.val, hq⟩ rfl]
  · show win0_2.index t (0 : Fin 2) * 16 + 1 * p.val = p.val
    rw [e4]; omega
  · show win0_2.index t (1 : Fin 2) * 512 + 1 * q.val = t.val * 512 + q.val
    rw [e5]; omega

/-- Every entry of the 16 × 16384 array lies in the block of the point its column falls in. -/
theorem covered (i : S16x16384.Idx) :
    ∃ t : Fin cfg0.N, (cfg0.win 2).flush t = true ∧ i ∈ ((cfg0.win 2).blk t).view.set := by
  have hN : cfg0.N = 32 := N_0
  have h0 : (i 0).val < 16 := (i 0).isLt
  have h1 : (i 1).val < 16384 := (i 1).isLt
  obtain ⟨t, ht⟩ : ∃ t : Fin cfg0.N, t.val = (i 1).val / 512 := ⟨⟨(i 1).val / 512, by rw [hN]; omega⟩, rfl⟩
  obtain ⟨-, -, -, -, e4, e5⟩ := block_indices t
  refine ⟨t, flush0_2 t, ?_⟩
  show i ∈ ((View.whole main_v1).slice (win0_2.rect t)).set
  rw [View.set_slice_whole, Rect.mem_set_unit]
  intro a
  match a with
  | ⟨0, _⟩ =>
    show win0_2.index t (0 : Fin 2) * 16 ≤ (i 0).val ∧ (i 0).val < win0_2.index t (0 : Fin 2) * 16 + 16
    rw [e4]; omega
  | ⟨1, _⟩ =>
    show win0_2.index t (1 : Fin 2) * 512 ≤ (i 1).val ∧ (i 1).val < win0_2.index t (1 : Fin 2) * 512 + 512
    rw [e5, ht]; omega

/-- After the last point the kernel's result array holds the transposed product of the arguments. -/
theorem final (c : Dev nD) :
    (dats m 0 c).arrAt 2 cfg0.N
      = productT (m ((c : Thread nD τ).loc main_arg0)) (m ((c : Thread nD τ).loc main_arg1)) :=
  (dats m 0 c).arrAt_eq_of_cover 2 _ (fun t _ => written_back m c t) covered

/-- The program's result: the transpose of the kernel's array, which is the product of the arguments. -/
theorem result (c : Dev nD) :
    Pipeline.afterTail₀ cfgs (dats m) 0 (V0 m) [hostOps1] c main_v2
      = product (m ((c : Thread nD τ).loc main_arg0)) (m ((c : Thread nD τ).loc main_arg1)) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v1)
      = productT (m ((c : Thread nD τ).loc main_arg0)) (m ((c : Thread nD τ).loc main_arg1)) from
    (Pipeline.withArrays_arr spec0 launch0.win.arr_inj c _ _ 2).trans (final m c)]
  funext i
  refine (transpose_apply [1, 0] _ _ i (ix2 (i 1) (i 0)) fun a => ?_).trans ?_
  · match a with
    | ⟨0, _⟩ => rfl
    | ⟨1, _⟩ => rfl
  · show dotT _ _ (i 1) (i 0) = dot _ _ (i 0) (i 1)
    exact dotT_eq_dot _ _ _ _

/-- The run, read: every weakly fair execution ends with the result array at the product of the arguments and
    the arguments as they were. -/
theorem run : θ_run defs (onTc (τ := τ) (main (F := Ideal))) ⟨m, fun _ => 0, ρ⟩ fun r => ∀ c : Dev nD,
      r.2.mem ((c : Thread nD τ).loc main_v2)
        = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v2 (Pipeline.mem_restRefs_of main_v2 (by decide) (by decide))).trans (result m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c)))⟩)
    (run_main m ρ)

end Cert.KernelIdeal.KernelProduct

end
-- ==== Proof.lean ====
/-
  x · e, computed through transposes, against x · e computed directly.

  The kernel never forms x · e in that arrangement. It transposes the 16384 × 1000 feature rows, walks the batch in
  32 blocks of 512 columns, and at each block contracts the 1000 × 16 embedding table against the 1000 × 512 block
  over the feature axis of both, which fills 512 columns of eᵀ · xᵀ (16 × 16384); a final transpose returns a
  16384 × 16 array. The reference is one contraction of x against e. Entry (b, c) of the kernel's result is the sum
  over the features k of e[k, c] · x[b, k]; the reference's is the sum over k of x[b, k] · e[k, c]. On the extended
  reals multiplication commutes, so the two sums agree term by term, whatever the entries are: the finiteness
  of the inputs is never used. No operation was rewritten when the kernel was idealized, so the idealization
  claim has nothing to state.

  The three frames are the generated ones (the reference's is its generated run with the result dropped).
-/
import proofs.«146224_g26422638805035_cont_9to1_837_16_alg».proof.Defs
import proofs.«146224_g26422638805035_cont_9to1_837_16_alg».proof.Proof.Gen.Kernel
import proofs.«146224_g26422638805035_cont_9to1_837_16_alg».proof.Proof.Gen.Kernel.Frame
import proofs.«146224_g26422638805035_cont_9to1_837_16_alg».proof.Proof.Gen.KernelIdeal
import proofs.«146224_g26422638805035_cont_9to1_837_16_alg».proof.Proof.Gen.KernelIdeal.Frame
import proofs.«146224_g26422638805035_cont_9to1_837_16_alg».proof.Proof.Gen.ReferenceIdeal
import proofs.«146224_g26422638805035_cont_9to1_837_16_alg».proof.Proof.Gen.Pre_finite_inputs
import proofs.«146224_g26422638805035_cont_9to1_837_16_alg».proof.Proof.Gen.ReferenceIdeal.Run
import proofs.«146224_g26422638805035_cont_9to1_837_16_alg».proof.Proof.Gen.ReferenceIdeal.Read
import proofs.«146224_g26422638805035_cont_9to1_837_16_alg».proof.Proof.Product
import proofs.«146224_g26422638805035_cont_9to1_837_16_alg».proof.Proof.ReferenceProduct
import proofs.«146224_g26422638805035_cont_9to1_837_16_alg».proof.Proof.KernelProduct
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the product of the feature rows and the table in their result arrays: the kernel's
    through the transposed product and a transpose, the reference's directly. -/
theorem algebraic : Cert.algebraic_KernelIdeal_ReferenceIdeal := by
  intro m ρ m' ρ' _ hagree
  refine ⟨fun c => Cert.FeatureProduct.product
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelProduct.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v0_eq]
  exact Cert.ReferenceIdeal.RefProduct.result_eq _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
